-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg0 : FVec F S10000x10000 .f32) (main_v13 : IVec S_ 1) (main_v15 : IVec S10000x10000 1) (main_cst_5 : FVec F S_ .f32) : IVec S_ 1 :=
  let main_v16 : FVec F S10000x10000 .f32 := broadcastInDim S10000x10000 ![] bcast_S_S10000x10000 main_cst_5
  let main_v17 : IVec S10000x10000 1 := cmpf .oeq main_arg0 main_v16
  let main_v18 : IVec S10000x10000 1 := ori main_v15 main_v17
  let main_c_6 : IVec S_ 1 := constantI S_ 1 1#1
  let main_v19 : IVec S_ 1 := (fun x v => Host.reduce IntOp.andi x v reducesTo_S10000x10000_S_d0_1 h_S_) main_v18 main_c_6
  let main_v20 : IVec S_ 1 := andi main_v13 main_v19
  main_v20

def fn {F : FTy → Type} [FloatOps F] (main_arg0 : FVec F S10000x10000 .f32) (main_arg1 : FVec F S10000x128 .f32) (main_arg2 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_cst_4 : FVec F S_ .f32 := constant S_ .f32 0x00000000#32
  let main_v14 : FVec F S10000x10000 .f32 := broadcastInDim S10000x10000 ![] bcast_S_S10000x10000 main_cst_4
  let main_v15 : IVec S10000x10000 1 := cmpf .oeq main_arg0 main_v14
  let main_cst_5 : FVec F S_ .f32 := constant S_ .f32 0x3F800000#32
  fn_part1 (F := F) main_arg0 main_v13 main_v15 main_cst_5
-- ==== Kernel.lean ====
abbrev S10000x10000 : Shape := ⟨2, ![10000, 10000]⟩
abbrev S10000x128 : Shape := ⟨2, ![10000, 128]⟩
abbrev S128x128 : Shape := ⟨2, ![128, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 5
  | .vmem => 6
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_4 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  reduces_S400x10000_S400 : S400x10000.Reduces [1] S400
  shapeCasts_S400_S400x1 : S400.ShapeCasts S400x1
  h_S400x128 : 0 < S400x128.numel
  broadcasts_S400x1_S400x128 : S400x1.Broadcasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 27
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S_, .f32⟩
  | .hbm, ⟨4, _⟩ => ⟨S10000x10000, .f32⟩
  | .hbm, ⟨5, _⟩ => ⟨S10000x10000, .i1⟩
  | .hbm, ⟨6, _⟩ => ⟨S10000x10000, .f32⟩
  | .hbm, ⟨7, _⟩ => ⟨S_, .f32⟩
  | .hbm, ⟨8, _⟩ => ⟨S10000, .f32⟩
  | .hbm, ⟨9, _⟩ => ⟨S10000x1, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x1, .f32⟩
  | .hbm, ⟨14, _⟩ => ⟨S10000x1, .f32⟩
  | .hbm, ⟨15, _⟩ => ⟨S10000x128, .f32⟩
  | .hbm, ⟨16, _⟩ => ⟨S10000x128, .f32⟩
  | .hbm, ⟨17, _⟩ => ⟨S128x128, .f32⟩
  | .hbm, ⟨18, _⟩ => ⟨S10000x128, .f32⟩
  | .hbm, ⟨19, _⟩ => ⟨S_, .f32⟩
  | .hbm, ⟨20, _⟩ => ⟨S_, .f32⟩
  | .hbm, ⟨21, _⟩ => ⟨S10000x128, .f32⟩
  | .hbm, ⟨22, _⟩ => ⟨S10000x128, .i1⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelPiece.lean ====
/-
  What one grid point leaves in the output's staging buffer. The body makes one store, through the whole buffer, of
  its arithmetic applied to what it loaded: the strip of the adjacency matrix, the whole feature matrix, the 400 rows
  of the feature matrix that start at the strip's first row (a second load from the same buffer, through a rectangle
  whose row offset is 400 times the grid coordinate), and the transposed weights.
-/
import proofs.«125372_g24172075942153_fold_wed_m_647_21_alg».proof.Proof.Gen.KernelIdeal.Frame
import Idealize.ShloMosaic.Lib.Pipeline.Value
import Idealize.ShloMosaic.Lib.Tactic

noncomputable section

namespace Cert.KernelIdeal.Piece

open Cert.KernelIdeal Cert.KernelIdeal.Gen Idealize.ShloMosaic Idealize.ShloMosaic.TcCoe Idealize.SL.Sem

variable {F : FTy → Type} [FloatOps F]

theorem zero_off : (![0, 0] : Fin 2 → Nat) = fun _ => 0 := funext fun a => by fin_cases a <;> rfl

/-- The rows of the feature matrix the body's second load reads: the rectangle of 400 rows at the strip's offset. -/
abbrev selfRect (i : grid0.Coords) : Rect S10000x128 :=
  Rect.unit (s := S10000x128) (k0_off1 i) S400x128.size (Facts₀.k0_off1_inb i)

/-- The buffer after the body: the payload of the three whole loads and the offset load. -/
theorem stored (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S400x128 .f32) (h4 : a4.IsWhole)
    (x0 : Vec F S400x10000 .f32) (x1 : Vec F S10000x128 .f32) (x2 : Vec F S128x128 .f32) :
    out0_A_3 c i a1 h1 a2 h2 a3 h3 a4 h4 x0 x1 x2 = k0_pay1 x0 x1 (View.ld x1 (selfRect i)) x2 := by
  unfold out0_A_3
  rw [View.read_writes_eq_canon _ _ _ (cover0_A_3 c i a1 h1 a2 h2 a3 h3 a4 h4 x0 x1 x2)]
  unfold kernelRun0_A
  dsimp only
  rw [View.canon_unit_zero zero_off]
  simp only [View.readAt_eq_ld, h1.read_unread, h2.read_unread, h3.read_unread,
    View.ld_unit_zero (S := S400x10000) zero_off, View.ld_unit_zero (S := S10000x128) zero_off,
    View.ld_unit_zero (S := S128x128) zero_off]

end Cert.KernelIdeal.Piece

end
-- ==== Proof.Spec.lean ====
/-
  One mean-aggregation layer of a graph network, as a function of the adjacency matrix M [10000, 10000], the node
  features h [10000, 128] and the weight matrix W [128, 128], entry by entry over the extended reals:

    agg(r, k) = (Σ_j M(r, j) · h(j, k) + h(r, k)) / (Σ_j M(r, j) + 1)      the neighbours' features and the node's own,
                                                                           over one more than the row's degree
    lin(r, c) = Σ_k agg(r, k) · W(c, k)                                    the product with W transposed
    out(r, c) = lin(r, c) if lin(r, c) ≥ 0, else slope · lin(r, c)         the leaky rectifier

  The three constants are kept as the binary words both programs carry (1, 0 and the slope 0x3C23D70A); the same
  word stands on both sides, so none is ever evaluated.
-/
import Idealize.ShloMosaic.PureOps.Ideal
import Idealize.ShloMosaic.Lib.ValueIdx

noncomputable section

namespace Cert.Sage

open Idealize.ShloMosaic Idealize.ShloMosaic.ValueIdx

abbrev SA : Shape := ⟨2, ![10000, 10000]⟩
abbrev SH : Shape := ⟨2, ![10000, 128]⟩
abbrev SW : Shape := ⟨2, ![128, 128]⟩

/-- Row `r`'s degree: the sum of the row of `M`. -/
def deg (M : SA.Idx → EReal) (r : Fin 10000) : EReal := ∑ j : Fin 10000, M (ix2 r j)

/-- The neighbours' features summed with the weights of row `r`. -/
def nbr (M : SA.Idx → EReal) (h : SH.Idx → EReal) (r : Fin 10000) (k : Fin 128) : EReal :=
  ∑ j : Fin 10000, M (ix2 r j) * h (ix2 j k)

/-- The aggregated feature: neighbours plus self, over degree plus one. -/
def agg (M : SA.Idx → EReal) (h : SH.Idx → EReal) (r : Fin 10000) (k : Fin 128) : EReal :=
  Ideal.div (nbr M h r k + h (ix2 r k)) (deg M r + Ideal.ofBits .f32 0x3F800000#32)

/-- The aggregated features times the transposed weights. -/
def lin (M : SA.Idx → EReal) (h : SH.Idx → EReal) (W : SW.Idx → EReal) (r : Fin 10000) (c : Fin 128) : EReal :=
  ∑ k : Fin 128, agg M h r k * W (ix2 c k)

/-- The leaky rectifier on one extended real. -/
def leaky (z : EReal) : EReal :=
  Scalar.select (Ideal.cmp .oge z (Ideal.ofBits .f32 0x00000000#32)) z (Ideal.ofBits .f32 0x3C23D70A#32 * z)

/-- The layer's result array. -/
def out (M : SA.Idx → EReal) (h : SH.Idx → EReal) (W : SW.Idx → EReal) : SH.Idx → EReal :=
  fun i => leaky (lin M h W (i 0) (i 1))

theorem out_ix2 (M : SA.Idx → EReal) (h : SH.Idx → EReal) (W : SW.Idx → EReal) (r : Fin 10000) (c : Fin 128) :
    out M h W (ix2 r c) = leaky (lin M h W r c) := rfl

end Cert.Sage

end
-- ==== Proof.LibLayout.lean ====
/-
  Layout operations of small shapes read at an index built from coordinates: a column [a, 1] broadcast along the
  second axis, and a vector [a] cast to the column [a, 1].
-/
import Idealize.ShloMosaic.Lib.Pipeline.Value
import Idealize.ShloMosaic.Lib.ValueIdx

namespace Cert.Layout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Layout
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.KernelPay.lean ====
/-
  The kernel body's arithmetic at one entry, over the extended reals.

  At one grid point the body holds a strip `a` of 400 rows of the adjacency matrix [400, 10000], the whole feature
  matrix `h` [10000, 128], the strip's own 400 rows `hs` of the features [400, 128], and the transposed weights `wt`
  [128, 128]. What it stores at (p, q) is the leaky rectifier of

      Σ_k ( (Σ_j a(p, j) · h(j, k) + hs(p, k)) / (Σ_j a(p, j) + 1) ) · wt(k, q)

  — the two matrix products as plain sums (each accumulates into zero), the lane sum of the strip as a sum over the
  row, the column of degrees cast [400] → [400, 1] and broadcast along the features.
-/
import proofs.«125372_g24172075942153_fold_wed_m_647_21_alg».proof.Proof.Gen.KernelIdeal.Skeleton
import proofs.«125372_g24172075942153_fold_wed_m_647_21_alg».proof.Proof.Spec
import proofs.«125372_g24172075942153_fold_wed_m_647_21_alg».proof.Proof.LibLayout
import proofs.«125372_g24172075942153_fold_wed_m_647_21_alg».proof.Proof.LibMatmul
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The strip's aggregated feature at (p, k): neighbours plus self over degree plus one. -/
def stripAgg (a : S400x10000.Idx → EReal) (h : S10000x128.Idx → EReal) (hs : S400x128.Idx → EReal)
    (p : Fin 400) (k : Fin 128) : EReal :=
  Ideal.div ((∑ j : Fin 10000, a (ix2 p j) * h (ix2 j k)) + hs (ix2 p k))
    ((∑ j : Fin 10000, a (ix2 p j)) + Ideal.ofBits .f32 0x3F800000#32)

/-- The sum along a row of the strip: the lane reduction read at row `p`. -/
theorem rowsum_apply (a : FVec Ideal S400x10000 .f32) (hr : S400x10000.Reduces [1] S400) (hφ : FKind.Formats .f32)
    (hacc : (0x00000000#32 : BitVec 32) = FKind.add.neutral .f32 hφ) (p : Fin 400) :
    multiReduction .add [1] S400 a 0x00000000#32 hr hφ hacc (ix1 p) = ∑ j : Fin 10000, a (ix2 p j) := by
  refine (Ideal.multiReduction_add_single a _ hr hφ hacc (ix1 p)).trans ?_
  show ∑ j : Fin 10000, a (hr.lift (ix1 p) j) = _
  refine Finset.sum_congr rfl fun j _ => congrArg a ?_
  funext ax
  match ax with
  | ⟨0, _⟩ => rfl
  | ⟨1, _⟩ => rfl

/-- The degree column plus one, broadcast along the features, read at (p, k). -/
theorem degcol_apply (a : FVec Ideal S400x10000 .f32) (hr : S400x10000.Reduces [1] S400) (hφ : FKind.Formats .f32)
    (hacc : (0x00000000#32 : BitVec 32) = FKind.add.neutral .f32 hφ) (hc : S400.ShapeCasts S400x1)
    (hb : S400x1.Broadcasts S400x128) (p : Fin 400) (k : Fin 128) :
    broadcastTo S400x128 (addf (shapeCast S400x1 (multiReduction .add [1] S400 a 0x00000000#32 hr hφ hacc) hc)
      (broadcast S400x1 (Scalar.ofBits (F := Ideal) .f32 0x3F800000#32))) hb (ix2 p k)
      = (∑ j : Fin 10000, a (ix2 p j)) + Ideal.ofBits .f32 0x3F800000#32 := by
  refine (Cert.Layout.broadcastTo_a1_ab_apply _ hb p k).trans ?_
  show shapeCast S400x1 (multiReduction .add [1] S400 a 0x00000000#32 hr hφ hacc) hc (ix2 p (0 : Fin 1)) + _ = _
  refine congrArg (· + Ideal.ofBits .f32 0x3F800000#32) ?_
  exact (Cert.Layout.shapeCast_a_a1_apply _ hc p 0).trans (rowsum_apply a hr hφ hacc p)

/-- The aggregated strip (first product, self term, division by the broadcast degree column) at (p, k). -/
theorem agg_apply (a : FVec Ideal S400x10000 .f32) (h : FVec Ideal S10000x128 .f32) (hs : FVec Ideal S400x128 .f32)
    (hr : S400x10000.Reduces [1] S400) (hφ : FKind.Formats .f32)
    (hacc : (0x00000000#32 : BitVec 32) = FKind.add.neutral .f32 hφ) (hc : S400.ShapeCasts S400x1)
    (hb : S400x1.Broadcasts S400x128) (p : Fin 400) (k : Fin 128) :
    divf (addf (matmul dot_S400x10000_S10000x128_S400x128_1_0_0_1_n_n none a h (constant S400x128 .f32 0x00000000#32)) hs)
      (broadcastTo S400x128 (addf (shapeCast S400x1 (multiReduction .add [1] S400 a 0x00000000#32 hr hφ hacc) hc)
        (broadcast S400x1 (Scalar.ofBits (F := Ideal) .f32 0x3F800000#32))) hb) (ix2 p k)
      = stripAgg a h hs p k := by
  show Ideal.div (matmul dot_S400x10000_S10000x128_S400x128_1_0_0_1_n_n none a h (constant S400x128 .f32 0x00000000#32) (ix2 p k) + hs (ix2 p k)) _ = _
  rw [degcol_apply a hr hφ hacc hc hb p k]
  refine congrArg (fun z => Ideal.div (z + hs (ix2 p k)) _) ?_
  exact Cert.MatProd.matmul_zero_apply Facts₀.dot_S400x10000_S10000x128_S400x128_1_0_0_1_n_n_wf none a h p k

/-- The second product (with the weights cast to their own shape) at (p, q). -/
theorem lin_apply (x : FVec Ideal S400x128 .f32) (wt : FVec Ideal S128x128 .f32) (hc : S128x128.ShapeCasts S128x128)
    (p : Fin 400) (q : Fin 128) :
    matmul dot_S400x128_S128x128_S400x128_1_0_0_1_n_n none x (shapeCast S128x128 wt hc) (constant S400x128 .f32 0x00000000#32) (ix2 p q)
      = ∑ k : Fin 128, x (ix2 p k) * wt (ix2 k q) := by
  rw [shapeCast_self]
  exact Cert.MatProd.matmul_zero_apply Facts₀.dot_S400x128_S128x128_S400x128_1_0_0_1_n_n_wf none x wt p q

/-- The rectifier's three vector operations at an entry. -/
theorem leaky_apply (z : FVec Ideal S400x128 .f32) (p : Fin 400) (q : Fin 128) :
    select (cmpf .oge z (broadcast S400x128 (Scalar.ofBits (F := Ideal) .f32 0x00000000#32))) z
      (mulf (broadcast S400x128 (Scalar.ofBits (F := Ideal) .f32 0x3C23D70A#32)) z) (ix2 p q)
      = Cert.Sage.leaky (z (ix2 p q)) := rfl

/-- What the body stores at (p, q). -/
theorem pay_apply (a : Vec Ideal S400x10000 .f32) (h : Vec Ideal S10000x128 .f32) (hs : Vec Ideal S400x128 .f32)
    (wt : Vec Ideal S128x128 .f32) (p : Fin 400) (q : Fin 128) :
    k0_pay1 (F := Ideal) a h hs wt (ix2 p q) = Cert.Sage.leaky (∑ k : Fin 128, stripAgg a h hs p k * wt (ix2 k q)) := by
  unfold k0_pay1
  dsimp only
  refine (leaky_apply _ p q).trans (congrArg Cert.Sage.leaky ?_)
  refine (lin_apply _ wt _ p q).trans ?_
  exact Finset.sum_congr rfl fun k _ => congrArg (· * wt (ix2 k q)) (agg_apply a h hs _ _ _ _ _ p k)

end Cert.KernelIdeal.Pay

end
-- ==== Proof.KernelPoint.lean ====
/-
  One grid point against the whole arrays. Point `b` of the 25 works on rows 400·b … 400·b + 399: its strip of the
  adjacency matrix is those rows of `A`, its "own rows" of the features are those rows of `H`, and the feature and
  weight matrices are whole. So what it stores at (p, q) is the layer's entry at row 400·b + p, column q — with the
  weights already transposed, as the kernel receives them.
-/
import proofs.«125372_g24172075942153_fold_wed_m_647_21_alg».proof.Proof.KernelPay

noncomputable section

namespace Cert.KernelIdeal.Point

open Cert.KernelIdeal Cert.KernelIdeal.Gen Idealize.ShloMosaic Idealize.ShloMosaic.ValueIdx Cert.Sage

/-- The layer's linear part against weights given transposed: Σ_k agg(r, k) · wt(k, c). -/
def linT (M : SA.Idx → EReal) (h : SH.Idx → EReal) (wt : SW.Idx → EReal) (r : Fin 10000) (c : Fin 128) : EReal :=
  ∑ k : Fin 128, agg M h r k * wt (ix2 k c)

/-- The layer's result against weights given transposed. -/
def outT (M : SA.Idx → EReal) (h : SH.Idx → EReal) (wt : SW.Idx → EReal) : SH.Idx → EReal :=
  fun i => leaky (linT M h wt (i 0) (i 1))

/-- Row `p` of strip `b` is row 400·b + p of the matrix. -/
def row (b : Fin 25) (p : Fin 400) : Fin 10000 := ⟨400 * b.val + p.val, by have := b.isLt; have := p.isLt; omega⟩

theorem row_val (b : Fin 25) (p : Fin 400) : (row b p).val = 400 * b.val + p.val := rfl

/-- The body's store at (p, q), its loads being the whole arrays' rows of strip `b`, is the layer at (400·b + p, q). -/
theorem point_eq (A : SA.Idx → EReal) (H : SH.Idx → EReal) (WT : SW.Idx → EReal)
    (a : Vec Ideal S400x10000 .f32) (h : Vec Ideal S10000x128 .f32) (hs : Vec Ideal S400x128 .f32)
    (wt : Vec Ideal S128x128 .f32) (b : Fin 25)
    (ha : ∀ (p : Fin 400) (j : Fin 10000), a (ix2 p j) = A (ix2 (row b p) j))
    (hh : ∀ (j : Fin 10000) (k : Fin 128), h (ix2 j k) = H (ix2 j k))
    (hhs : ∀ (p : Fin 400) (k : Fin 128), hs (ix2 p k) = H (ix2 (row b p) k))
    (hwt : ∀ (k q : Fin 128), wt (ix2 k q) = WT (ix2 k q)) (p : Fin 400) (q : Fin 128) :
    k0_pay1 (F := Ideal) a h hs wt (ix2 p q) = outT A H WT (ix2 (row b p) q) := by
  rw [Pay.pay_apply]
  show leaky _ = leaky (linT A H WT (row b p) q)
  refine congrArg leaky (Finset.sum_congr rfl fun k _ => ?_)
  rw [hwt k q]
  refine congrArg (· * WT (ix2 k q)) ?_
  unfold Pay.stripAgg agg nbr deg
  simp only [ha, hh, hhs]

end Cert.KernelIdeal.Point

end
-- ==== Proof.KernelValue.lean ====
/-
  From the 25 grid points to the whole result array.

  Point `t` stages rows 400·t … 400·t + 399 of the adjacency matrix, the whole feature matrix, and the whole transposed
  weight matrix (which the host computes before the region), and writes back rows 400·t … 400·t + 399 of the result.
  Each written block is the corresponding block of ONE function of the whole arrays — the layer's result, with the
  weights transposed back —, and the 25 blocks tile the 10000 rows (row r lies in block r / 400). So after the run the
  result array is that function of the argument arrays.
-/
import proofs.«125372_g24172075942153_fold_wed_m_647_21_alg».proof.Proof.Gen.KernelIdeal.Value
import proofs.«125372_g24172075942153_fold_wed_m_647_21_alg».proof.Proof.KernelPiece
import proofs.«125372_g24172075942153_fold_wed_m_647_21_alg».proof.Proof.KernelPoint
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Two functions of a [400, 128] block's index agree when they agree at every (p, q). -/
theorem funext_block {α : Type} (f g : S400x128.Idx → α) (h : ∀ (p : Fin 400) (q : Fin 128), f (ix2 p q) = g (ix2 p q)) :
    f = g := funext fun y => by rw [eq_ix2 y]; exact h _ _

/-- The grid has 25 points; a point as a strip number. -/
def strip (t : Fin cfg0.N) : Fin 25 := ⟨t.val, by have h := t.isLt; have hN : cfg0.N = 25 := N_0; omega⟩

/-- The printed index maps, decided once over the grid: the adjacency strip and the result block move with the point
    along the rows, the feature and weight windows stay at block (0, 0), and the grid coordinate is the point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t (0 : Fin 1)).val = t.val :=
  (by decide +kernel : ∀ t : Fin grid0.N, _)

/-- The adjacency strip at point `t` is rows 400·t + p of the matrix. -/
theorem adj_block (c : Dev nD) (t : Fin cfg0.N) (p : Fin 400) (j : Fin 10000) :
    (iblk m c 0 t : Vec Ideal S400x10000 .f32) (ix2 p j) = V m c main_arg0 (ix2 (Point.row (strip t) p) j) := by
  obtain ⟨e0, e1, -⟩ := index_facts t
  unfold iblk
  rw [View.read_apply]
  refine congrArg (V m c main_arg0) ?_
  funext a
  apply Fin.ext
  match a with
  | ⟨0, _⟩ => show win0_0.index t (0 : Fin 2) * 400 + 1 * p.val = 400 * t.val + p.val; rw [e0]; omega
  | ⟨1, _⟩ => show win0_0.index t (1 : Fin 2) * 10000 + 1 * j.val = j.val; rw [e1]; omega

/-- The feature window's block is the whole feature matrix at every point. -/
theorem feat_block (c : Dev nD) (t : Fin cfg0.N) (j : Fin 10000) (k : Fin 128) :
    (iblk m c 1 t : Vec Ideal S10000x128 .f32) (ix2 j k) = V m c main_arg1 (ix2 j k) := by
  obtain ⟨-, -, e2, e3, -⟩ := index_facts t
  unfold iblk
  rw [View.read_apply]
  refine congrArg (V m c main_arg1) ?_
  funext a
  apply Fin.ext
  match a with
  | ⟨0, _⟩ => show win0_1.index t (0 : Fin 2) * 10000 + 1 * j.val = j.val; rw [e2]; omega
  | ⟨1, _⟩ => show win0_1.index t (1 : Fin 2) * 128 + 1 * k.val = k.val; rw [e3]; omega

/-- The weight window's block is the whole transposed weight matrix at every point. -/
theorem wt_block (c : Dev nD) (t : Fin cfg0.N) (k q : Fin 128) :
    (iblk m c 2 t : Vec Ideal S128x128 .f32) (ix2 k q) = V m c main_v0 (ix2 k q) := by
  obtain ⟨-, -, -, -, e4, e5, -⟩ := index_facts t
  unfold iblk
  rw [View.read_apply]
  refine congrArg (V m c main_v0) ?_
  funext a
  apply Fin.ext
  match a with
  | ⟨0, _⟩ => show win0_2.index t (0 : Fin 2) * 128 + 1 * k.val = k.val; rw [e4]; omega
  | ⟨1, _⟩ => show win0_2.index t (1 : Fin 2) * 128 + 1 * q.val = q.val; rw [e5]; omega

/-- The body's second load from the feature buffer, at row offset 400 times the grid coordinate, reads the strip's
    own rows of the feature matrix. -/
theorem self_block (c : Dev nD) (t : Fin cfg0.N) (p : Fin 400) (k : Fin 128) :
    View.ld (iblk m c 1 t : Vec Ideal S10000x128 .f32) (Piece.selfRect (grid0.coords t)) (ix2 p k)
      = V m c main_arg1 (ix2 (Point.row (strip t) p) k) := by
  obtain ⟨-, -, -, -, -, -, -, -, e8⟩ := index_facts t
  have hi : (Piece.selfRect (grid0.coords t)).idx (ix2 p k) = ix2 (Point.row (strip t) p) k := by
    funext a
    apply Fin.ext
    match a with
    | ⟨0, _⟩ =>
      show k0_off1 (grid0.coords t) (0 : Fin 2) + 1 * p.val = 400 * t.val + p.val
      rw [k0_off1_eq (grid0.coords t)]
      show 400 * (grid0.coords t (0 : Fin 1)).val + 1 * p.val = 400 * t.val + p.val
      rw [e8]; omega
    | ⟨1, _⟩ =>
      show k0_off1 (grid0.coords t) (1 : Fin 2) + 1 * k.val = k.val
      rw [k0_off1_eq (grid0.coords t)]
      show 0 + 1 * k.val = k.val
      omega
  show (iblk m c 1 t : Vec Ideal S10000x128 .f32) ((Piece.selfRect (grid0.coords t)).idx (ix2 p k)) = _
  rw [hi]
  exact feat_block m c t _ k

/-- What point `t` writes back is block `t` of the layer's result over the arrays as the region finds them. -/
theorem flushed_eq (c : Dev nD) (t : Fin cfg0.N) :
    (dats m 0 c).flushed 3 t
      = ((cfg0.win 3).blk t).view.read (Elt Ideal) (Point.outT (V m c main_arg0) (V m c main_arg1) (V m c main_v0)) := by
  rw [Value.flushed3_A, Piece.stored]
  refine funext_block _ _ fun p q => ?_
  obtain ⟨-, -, -, -, -, -, e6, e7, -⟩ := index_facts t
  have hi : ((cfg0.win 3).blk t).view.emb (ix2 p q) = ix2 (Point.row (strip t) p) q := by
    funext a
    apply Fin.ext
    match a with
    | ⟨0, _⟩ => show win0_3.index t (0 : Fin 2) * 400 + 1 * p.val = 400 * t.val + p.val; rw [e6]; omega
    | ⟨1, _⟩ => show win0_3.index t (1 : Fin 2) * 128 + 1 * q.val = q.val; rw [e7]; omega
  show k0_pay1 (F := Ideal) (iblk m c 0 t) (iblk m c 1 t) (View.ld (iblk m c 1 t) (Piece.selfRect (grid0.coords t))) (iblk m c 2 t) (ix2 p q)
    = Point.outT (V m c main_arg0) (V m c main_arg1) (V m c main_v0) (((cfg0.win 3).blk t).view.emb (ix2 p q))
  rw [hi]
  exact Point.point_eq _ _ _ _ _ _ _ (strip t) (adj_block m c t) (feat_block m c t) (self_block m c t) (wt_block m c t) p q

/-- An index of the result array is in point `t`'s block iff each coordinate is in the block's range on its axis. -/
theorem mem_block (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v1).slice (win0_3.rect t)).set ↔ _
  rw [View.set_slice_whole, Rect.mem_set_unit]
  exact Iff.rfl

/-- Every row of the result lies in the block of point r / 400. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  have hlt : (i 0).val / 400 < cfg0.N := by rw [hN]; omega
  obtain ⟨-, -, -, -, -, -, e6, e7, -⟩ := index_facts ⟨(i 0).val / 400, hlt⟩
  refine ⟨⟨(i 0).val / 400, hlt⟩, flush0_3 _, ?_⟩
  rw [mem_block]
  intro a
  match a with
  | ⟨0, _⟩ =>
    show win0_3.index ⟨(i 0).val / 400, hlt⟩ (0 : Fin 2) * 400 ≤ (i 0).val ∧ (i 0).val < win0_3.index ⟨(i 0).val / 400, hlt⟩ (0 : Fin 2) * 400 + 400
    rw [e6]; show (i 0).val / 400 * 400 ≤ (i 0).val ∧ (i 0).val < (i 0).val / 400 * 400 + 400; omega
  | ⟨1, _⟩ =>
    show win0_3.index ⟨(i 0).val / 400, hlt⟩ (1 : Fin 2) * 128 ≤ (i 1).val ∧ (i 1).val < win0_3.index ⟨(i 0).val / 400, hlt⟩ (1 : Fin 2) * 128 + 128
    rw [e7]; omega

/-- The weight window's array is the host's transpose of the weight argument. -/
theorem wt_array (c : Dev nD) :
    (V m c main_v0 : S128x128.Idx → EReal)
      = transpose S128x128 [1, 0] (m ((c : Thread nD τ).loc main_arg2)) Facts₀.transposes_S128x128_S128x128_1_0 := by
  dsimp only [Gen.V, Gen.hostOps0]
  after_results

/-- Against weights that are a transpose, the layer's transposed form is the layer. -/
theorem outT_transpose (M : Cert.Sage.SA.Idx → EReal) (h : Cert.Sage.SH.Idx → EReal) (W : Cert.Sage.SW.Idx → EReal)
    (ht : S128x128.Transposes [1, 0] S128x128) :
    Point.outT M h (transpose S128x128 [1, 0] W ht) = Cert.Sage.out M h W := by
  funext i
  show Cert.Sage.leaky (∑ k : Fin 128, Cert.Sage.agg M h (i 0) k * transpose S128x128 [1, 0] W ht (ix2 k (i 1)))
    = Cert.Sage.leaky (∑ k : Fin 128, Cert.Sage.agg M h (i 0) k * W (ix2 (i 1) k))
  refine congrArg Cert.Sage.leaky (Finset.sum_congr rfl fun k _ => ?_)
  rw [transpose_ix2_apply W ht k (i 1)]

/-- The result array after the run: the layer of the argument arrays. -/
theorem final (c : Dev nD) :
    (dats m 0 c).arrAt 3 cfg0.N
      = Cert.Sage.out (m ((c : Thread nD τ).loc main_arg0)) (m ((c : Thread nD τ).loc main_arg1)) (m ((c : Thread nD τ).loc main_arg2)) := by
  rw [(dats m 0 c).arrAt_eq_of_cover 3 (Point.outT (V m c main_arg0) (V m c main_arg1) (V m c main_v0))
    (fun t _ => flushed_eq m c t) covered, V_main_arg0, V_main_arg1, wt_array, outT_transpose]

/-- The kernel's run, read: the result array is the layer of the argument arrays, which end unchanged. -/
theorem run : θ_run defs (onTc (τ := τ) (main (F := Ideal))) ⟨m, fun _ => 0, ρ⟩ fun r => ∀ c : Dev nD,
      r.2.mem ((c : Thread nD τ).loc main_v1)
        = Cert.Sage.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.PreDecode.lean ====
/-
  What the precondition says of the adjacency matrix. The precondition's last conjunct is "every entry of A equals 0
  or equals 1", printed as a reduction by `and`, over all of A, of the `or` of the two comparisons. When the
  precondition evaluates to 1, every entry of that `or` is 1, so every entry of A is the word 0 or the word 1.

  For such a matrix the reference's mask — the test "entry ≠ 0" converted to a float — is the matrix itself:
  at an entry 0 the test is 0 and converts to 0; at an entry 1 the test is 1 and converts to 1.
-/
import proofs.«125372_g24172075942153_fold_wed_m_647_21_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Pre_finite_inputs.Decode

open Cert.Pre_finite_inputs Idealize.ShloMosaic Idealize.ShloMosaic.ValueIdx

instance : Subsingleton S_.Idx := ⟨fun a b => funext fun d => d.elim0⟩

/-- An "equals" comparison of extended reals that answers 1 is an equality. -/
theorem eq_of_cmp_oeq {x y : EReal} (h : Ideal.cmp .oeq x y = 1#1) : x = y := by
  unfold Ideal.cmp at h
  by_contra hne
  simp [hne] at h

/-- Under the precondition every entry of the adjacency matrix is the word 0 or the word 1. -/
theorem zero_or_one [Facts] (A : FVec Ideal S10000x10000 .f32) (h : FVec Ideal S10000x128 .f32)
    (W : FVec Ideal S128x128 .f32) (hp : fn (F := Ideal) A h W = fun _ => 1#1) (i : S10000x10000.Idx) :
    A i = Ideal.ofBits .f32 0x00000000#32 ∨ A i = Ideal.ofBits .f32 0x3F800000#32 := by
  have h0 := congrFun hp ix0
  dsimp only [fn, fn_part1] at h0
  obtain ⟨-, h1⟩ := IntOp.andi_eq_one.1 h0
  have h2 := Host.reduce_andi_all _ _ _ _ ix0 h1 i
  rcases IntOp.ori_eq_one.1 h2 with h3 | h3
  · exact Or.inl (eq_of_cmp_oeq h3)
  · exact Or.inr (eq_of_cmp_oeq h3)

/-- The mask of a 0/1 matrix — "entry ≠ 0" as a float — is the matrix. -/
theorem mask_eq {S : Shape} (A : FVec Ideal S .f32) (hb : (⟨0, ![]⟩ : Shape).BroadcastsInDim S ![])
    (hA : ∀ i, A i = Ideal.ofBits .f32 0x00000000#32 ∨ A i = Ideal.ofBits .f32 0x3F800000#32) :
    uitofp .f32 (cmpf .une A (broadcastInDim S ![] hb (constant (F := Ideal) ⟨0, ![]⟩ .f32 0x00000000#32))) = A := by
  funext i
  show (((Ideal.cmp .une (A i) (Ideal.ofBits .f32 0x00000000#32)).toNat : ℝ) : EReal) = A i
  rcases hA i with e | e
  · rw [e, Ideal.ofBits_zero_f32]
    simp [Ideal.cmp]
  · rw [e, Ideal.ofBits_zero_f32, Ideal.ofBits_one_f32]
    simp [Ideal.cmp]

end Cert.Pre_finite_inputs.Decode

end
-- ==== Proof.RefRun.lean ====
/-
  The reference program's run, read back as a value.

  The reference is a straight line of tensor operations. From the adjacency matrix A [10000, 10000], the node
  features h [10000, 128] and the weights W [128, 128] it computes, in order:

    mask = (A ≠ 0) as 0/1 floats;            deg  = the row sums of mask, started from 0;
    s    = mask · h (a matrix product);       agg  = (s + h) / (deg + 1), the denominator spread along each row;
    z    = agg · Wᵀ;                          result = z where z ≥ 0, and slope · z elsewhere.

  The last line is two nested function calls in the program's text (the leaky rectifier, which calls the
  elementwise choice). A call executes the callee's operations on the caller's buffers, so once the two
  definitions are unfolded the whole program is one list of twenty-four operations: seventeen of its own, six of
  the rectifier, one of the choice. Run from any memory, every buffer ends at the fold of that list over the
  initial contents; read at the result buffer the fold is the composed term refTerm below, and at an argument
  buffer (which no operation writes) it is the initial contents.
-/
import proofs.«125372_g24172075942153_fold_wed_m_647_21_alg».proof.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

/-! ## The value computed, stage by stage -/

/-- The 0/1 mask of the nonzero entries of A. -/
def maskTerm (A : FVec F S10000x10000 .f32) : FVec F S10000x10000 .f32 :=
  uitofp .f32 (cmpf .une A (broadcastInDim S10000x10000 ![] bcast_S_S10000x10000 (constant (F := F) S_ .f32 0x00000000#32)))

/-- The denominator: each row's sum of the mask (from zero) plus one, spread over the 128 columns. -/
def denTerm (A : FVec F S10000x10000 .f32) : FVec F S10000x128 .f32 :=
  broadcastInDim S10000x128 ![0, 1] bcast_S10000x1_S10000x128_0_1
    (addf
      (broadcastInDim S10000x1 ![0] bcast_S10000_S10000x1_0
        (Host.reduceAdd (maskTerm A) (constant (F := F) S_ .f32 0x00000000#32) reducesTo_S10000x10000_S10000_d1 h_S_))
      (broadcastInDim S10000x1 ![] bcast_S_S10000x1 (constant (F := F) S_ .f32 0x3F800000#32)))

/-- The aggregated features: (mask · h + h) / (row sum + 1). -/
def aggTerm (A : FVec F S10000x10000 .f32) (h : FVec F S10000x128 .f32) : FVec F S10000x128 .f32 :=
  Host.divf (addf (Host.dotGeneral dot_S10000x10000_S10000x128_S10000x128_1_0_0_1_n_n none (maskTerm A) h) h) (denTerm A)

/-- The aggregated features times the transposed weights. -/
def linTerm (A : FVec F S10000x10000 .f32) (h : FVec F S10000x128 .f32) (W : FVec F S128x128 .f32) :
    FVec F S10000x128 .f32 :=
  Host.dotGeneral dot_S10000x128_S128x128_S10000x128_1_0_0_1_n_n none (aggTerm A h)
    (transpose S128x128 [1, 0] W transposes_S128x128_S128x128_1_0)

/-- The leaky rectifier on an array: z where z ≥ 0, slope · z elsewhere. -/
def leakyTerm (z : FVec F S10000x128 .f32) : FVec F S10000x128 .f32 :=
  select (cmpf .oge z (broadcastInDim S10000x128 ![] bcast_S_S10000x128 (constant (F := F) S_ .f32 0x00000000#32))) z
    (mulf (broadcastInDim S10000x128 ![] bcast_S_S10000x128 (id (constant (F := F) S_ .f32 0x3C23D70A#32))) z)

/-- What the reference leaves in its result buffer, as a function of its three arguments. -/
def refTerm (A : FVec F S10000x10000 .f32) (h : FVec F S10000x128 .f32) (W : FVec F S128x128 .f32) :
    FVec F S10000x128 .f32 :=
  leakyTerm (linTerm A h W)

/-! ## The program as a list of operations -/

/-- The twenty-four operations in order: the program's own seventeen, then the rectifier's six and the choice's
    one, each over the buffers the call site names for them. -/
abbrev ops : List (HloOp τ sig (Elt F)) :=
  [ nullary main_cst (constant S_ .f32 0x00000000#32),
    unary main_cst main_v0 (broadcastInDim S10000x10000 ![] bcast_S_S10000x10000 : (⟨S_, .f32⟩ : BufTy).Contents (Elt F) → (⟨S10000x10000, .f32⟩ : BufTy).Contents (Elt F)),
    binary main_arg0 main_v0 main_v1 (cmpf .une : (⟨S10000x10000, .f32⟩ : BufTy).Contents (Elt F) → (⟨S10000x10000, .f32⟩ : BufTy).Contents (Elt F) → (⟨S10000x10000, .i1⟩ : BufTy).Contents (Elt F)),
    unary main_v1 main_v2 (uitofp .f32 : (⟨S10000x10000, .i1⟩ : BufTy).Contents (Elt F) → (⟨S10000x10000, .f32⟩ : BufTy).Contents (Elt F)),
    nullary main_cst_0 (constant S_ .f32 0x00000000#32),
    binary main_v2 main_cst_0 main_v3 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v3 main_v4 (broadcastInDim S10000x1 ![0] bcast_S10000_S10000x1_0 : (⟨S10000, .f32⟩ : BufTy).Contents (Elt F) → (⟨S10000x1, .f32⟩ : BufTy).Contents (Elt F)),
    binary main_v2 main_arg1 main_v5 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v5 main_arg1 main_v6 (addf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3F800000#32),
    unary main_cst_1 main_v7 (broadcastInDim S10000x1 ![] bcast_S_S10000x1 : (⟨S_, .f32⟩ : BufTy).Contents (Elt F) → (⟨S10000x1, .f32⟩ : BufTy).Contents (Elt F)),
    binary main_v4 main_v7 main_v8 (addf : (⟨S10000x1, .f32⟩ : BufTy).Contents (Elt F) → (⟨S10000x1, .f32⟩ : BufTy).Contents (Elt F) → (⟨S10000x1, .f32⟩ : BufTy).Contents (Elt F)),
    unary main_v8 main_v9 (broadcastInDim S10000x128 ![0, 1] bcast_S10000x1_S10000x128_0_1 : (⟨S10000x1, .f32⟩ : BufTy).Contents (Elt F) → (⟨S10000x128, .f32⟩ : BufTy).Contents (Elt F)),
    binary main_v6 main_v9 main_v10 (Host.divf : (⟨S10000x128, .f32⟩ : BufTy).Contents (Elt F) → (⟨S10000x128, .f32⟩ : BufTy).Contents (Elt F) → (⟨S10000x128, .f32⟩ : BufTy).Contents (Elt F)),
    unary main_arg2 main_v11 ((transpose S128x128 [1, 0] · transposes_S128x128_S128x128_1_0) : (⟨S128x128, .f32⟩ : BufTy).Contents (Elt F) → (⟨S128x128, .f32⟩ : BufTy).Contents (Elt F)),
    binary main_v10 main_v11 main_v12 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_cst_2 (constant S_ .f32 0x3C23D70A#32),
    TRef.nullary main_call0.cst (constant S_ .f32 0x00000000#32),
    TRef.unary main_call0.cst main_call0.v0 (broadcastInDim S10000x128 ![] bcast_S_S10000x128),
    TRef.binary (.of main_v12) main_call0.v0 main_call0.v1 (cmpf .oge),
    TRef.unary (.of main_cst_2) main_call0.v2 id,
    TRef.unary main_call0.v2 main_call0.v3 (broadcastInDim S10000x128 ![] bcast_S_S10000x128),
    TRef.binary main_call0.v3 (.of main_v12) main_call0.v4 mulf,
    TRef.ternary main_call0.v1 (.of main_v12) main_call0.v4 main_call0.call0.v0 select ]

set_option maxRecDepth 1024 in
/-- The program is that straight line: with the two called functions' definitions unfolded at their calls, both
    sides are one chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., binary_bufs_sub ..,
    unary_bufs_sub .., binary_bufs_sub .., binary_bufs_sub .., nullary_bufs_sub .., unary_bufs_sub .., binary_bufs_sub ..,
    unary_bufs_sub .., binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-! ## The fold read at the four buffers -/

/-- At the result buffer the fold is the composed term: each operation's value at its own buffer is its function
    of its operands' buffers, every other buffer keeps what it held, and the typed references of the called
    functions carry the buffers' own types, so the transports along them are identities. -/
theorem out_eq (V : Valuation τ sig (Elt F)) :
    after ops V (main_v13 : DevRef τ sig)
      = refTerm (V (main_arg0 : DevRef τ sig)) (V (main_arg1 : DevRef τ sig)) (V (main_arg2 : DevRef τ sig)) := by
  after_results
  rfl

/-- No operation writes an argument buffer. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

/-! ## The run -/

/-- On every device, for any float values, from any memory with zero counters: every weakly fair execution of the
    reference terminates with the result buffer at refTerm of the three arguments' initial contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's value is the layer's specification applied to the 0/1 mask of the adjacency matrix.

  The reference's result is a composition of whole-array operations; the specification is written entry by entry.
  Reading the composition at the entry (r, c), outermost operation first:

    the rectifier is elementwise, so the entry is the scalar rectifier of z(r, c), its two constants the same words;
    z = agg · Wᵀ is a plain matrix product: z(r, c) = Σ_k agg(r, k) · Wᵀ(k, c), and Wᵀ(k, c) = W(c, k);
    agg(r, k) is the quotient of (mask · h)(r, k) + h(r, k), the product again a sum Σ_j mask(r, j) · h(j, k),
      by the denominator at (r, k);
    the denominator is a column [10000, 1] spread along the rows' 128 entries, so at (r, k) it is the column's row r:
      the row sum of the mask, taken from the initial value 0, plus the constant 1;
    the row sum from 0 is 0 + Σ_j mask(r, j), and the word 0 is the real number zero, so it is the degree.

  Each line is one lemma below; no sum is ever evaluated, only rewritten term by term.
-/
import proofs.«125372_g24172075942153_fold_wed_m_647_21_alg».proof.Proof.RefRun
import proofs.«125372_g24172075942153_fold_wed_m_647_21_alg».proof.Proof.Spec
import proofs.«125372_g24172075942153_fold_wed_m_647_21_alg».proof.Proof.LibMatmul
import Idealize.ShloMosaic.Lib.IdealHost
import Idealize.ShloMosaic.Lib.ValueLayout
import Idealize.ShloMosaic.Lib.Pipeline.Value

noncomputable section

namespace Cert.ReferenceIdeal.RefValue

open Cert.ReferenceIdeal Cert.ReferenceIdeal.Facts₀ Cert.ReferenceIdeal.RefRun Idealize.ShloMosaic
  Idealize.ShloMosaic.ValueIdx

variable [Facts]

/-- The rectifier is elementwise: at an entry it is the scalar rectifier of that entry. The two broadcast
    scalars read their constant's word at every index. -/
theorem leakyTerm_apply (z : FVec Ideal S10000x128 .f32) (r : Fin 10000) (c : Fin 128) :
    leakyTerm (F := Ideal) z (ix2 r c) = Cert.Sage.leaky (z (ix2 r c)) := rfl

/-- The row index r with the column j inserted on the summed axis is the entry (r, j). -/
theorem lift_row (hR : S10000x10000.Reduces [1] S10000) (r : Fin 10000) (j : Fin 10000) :
    hR.lift (ix1 r) j = ix2 r j := by
  funext a
  match a with
  | ⟨0, _⟩ => rfl
  | ⟨1, _⟩ => rfl

/-- The row sums taken from the initial value zero: at row r, 0 + Σ_j M(r, j), and the word 0 is the number zero,
    so it is the row's degree. -/
theorem rowSum_apply (M : FVec Ideal S10000x10000 .f32) (r : Fin 10000) :
    Host.reduceAdd M (constant (F := Ideal) S_ .f32 0x00000000#32) reducesTo_S10000x10000_S10000_d1 h_S_ (ix1 r)
      = Cert.Sage.deg M r := by
  have hR : S10000x10000.Reduces [1] S10000 := by decide
  refine (hostReduceAdd_apply M _ _ _ (ix1 r)).trans ?_
  refine (Ideal.hostReduceAdd_single reducesTo_S10000x10000_S10000_d1 hR M _ (ix1 r)).trans ?_
  refine (congrArg (· + _) ((constant_apply _ _).trans Ideal.ofBits_zero_f32)).trans ?_
  refine (zero_add _).trans ?_
  exact Finset.sum_congr rfl fun j _ => congrArg M (lift_row hR r j)

/-- The denominator at (r, k): the column [10000, 1] of row sums plus one, spread along the row, read at its row r. -/
theorem denTerm_apply (A : FVec Ideal S10000x10000 .f32) (r : Fin 10000) (k : Fin 128) :
    denTerm (F := Ideal) A (ix2 r k) = Cert.Sage.deg (maskTerm A) r + Ideal.ofBits .f32 0x3F800000#32 := by
  unfold denTerm
  refine (broadcastInDim_apply _ _ _ (ix2 r k) (ix2 r (0 : Fin 1))
    (fun a => match a with | ⟨0, _⟩ => rfl | ⟨1, _⟩ => rfl)).trans ?_
  refine (addf_apply _ _ _).trans ?_
  refine congrArg₂ (· + ·) ?_ rfl
  refine (broadcastInDim_apply _ _ _ (ix2 r (0 : Fin 1)) (ix1 r) (fun a => match a with | ⟨0, _⟩ => rfl)).trans ?_
  exact rowSum_apply _ r

/-- The aggregated feature at (r, k): the mask's product with h, a sum over the neighbours, plus the node's own
    feature, over the denominator. -/
theorem aggTerm_apply (A : FVec Ideal S10000x10000 .f32) (h : FVec Ideal S10000x128 .f32) (r : Fin 10000) (k : Fin 128) :
    aggTerm (F := Ideal) A h (ix2 r k) = Cert.Sage.agg (maskTerm A) h r k := by
  unfold aggTerm Cert.Sage.agg Cert.Sage.nbr
  refine (hostDivf_apply _ _ _).trans ?_
  refine congrArg₂ Ideal.div ?_ (denTerm_apply A r k)
  refine (addf_apply _ _ _).trans ?_
  refine congrArg (· + h (ix2 r k)) ?_
  exact Cert.MatProd.dotGeneral_apply dot_S10000x10000_S10000x128_S10000x128_1_0_0_1_n_n_wf none (maskTerm A) h r k

/-- The linear stage at (r, c): the product with the transposed weights, Σ_k agg(r, k) · W(c, k). -/
theorem linTerm_apply (A : FVec Ideal S10000x10000 .f32) (h : FVec Ideal S10000x128 .f32) (W : FVec Ideal S128x128 .f32)
    (r : Fin 10000) (c : Fin 128) :
    linTerm (F := Ideal) A h W (ix2 r c) = Cert.Sage.lin (maskTerm A) h W r c := by
  unfold linTerm Cert.Sage.lin
  refine (Cert.MatProd.dotGeneral_apply dot_S10000x128_S128x128_S10000x128_1_0_0_1_n_n_wf none (aggTerm A h)
    (transpose S128x128 [1, 0] W transposes_S128x128_S128x128_1_0) r c).trans ?_
  refine Finset.sum_congr rfl fun k _ => ?_
  exact congrArg₂ (· * ·) (aggTerm_apply A h r k) (transpose_ix2_apply W transposes_S128x128_S128x128_1_0 k c)

/-- The reference's value is the specification applied to the mask of the adjacency matrix. -/
theorem refTerm_eq (A : FVec Ideal S10000x10000 .f32) (h : FVec Ideal S10000x128 .f32) (W : FVec Ideal S128x128 .f32) :
    RefRun.refTerm (F := Ideal) A h W
      = Cert.Sage.out (uitofp (F := Ideal) .f32 (cmpf .une A (broadcastInDim S10000x10000 ![] Facts₀.bcast_S_S10000x10000
          (constant (F := Ideal) S_ .f32 0x00000000#32)))) h W := by
  funext i
  obtain ⟨r, c, rfl⟩ : ∃ (r : Fin 10000) (c : Fin 128), i = ix2 r c := ⟨i 0, i 1, eq_ix2 i⟩
  unfold refTerm
  refine (leakyTerm_apply _ r c).trans ?_
  refine (congrArg Cert.Sage.leaky (linTerm_apply A h W r c)).trans ?_
  exact (Cert.Sage.out_ix2 (maskTerm A) h W r c).symm

end Cert.ReferenceIdeal.RefValue

end
-- ==== Proof.lean ====
/-
  The claim: a fused graph-aggregation kernel against its array-language reference, over the extended reals.

  Both programs compute, from an adjacency matrix A [10000, 10000], node features h [10000, 128] and weights
  W [128, 128],

      out(r, c) = leaky( Σ_k ( (Σ_j M(r, j) · h(j, k) + h(r, k)) / (Σ_j M(r, j) + 1) ) · W(c, k) ),

  the kernel with M = A, strip by strip over 25 strips of 400 rows, the reference with M = the mask "A ≠ 0" as a
  float, on whole arrays. The precondition says every entry of A is 0 or 1 (and every input is finite); for such a
  matrix the mask is A itself, and the two results are the same function of the arguments, entry by entry: both
  products are plain sums, both row sums are sums along the row (the reference's from an initial 0), both divisions
  are the extended reals' one division, and the rectifier carries the same slope word on both sides. No law beyond
  that is needed, so finiteness is not used.

  The three frames: the kernel's two are its generated frame certificates; the reference has no kernel, and its
  frame is its run (every operation of @main, the two nested calls' operations in their place) with the result
  dropped. The idealization rewrote nothing, so there is nothing to preserve.
-/
import proofs.«125372_g24172075942153_fold_wed_m_647_21_alg».proof.Defs
import proofs.«125372_g24172075942153_fold_wed_m_647_21_alg».proof.Proof.Gen.Kernel
import proofs.«125372_g24172075942153_fold_wed_m_647_21_alg».proof.Proof.Gen.Kernel.Skeleton
import proofs.«125372_g24172075942153_fold_wed_m_647_21_alg».proof.Proof.Gen.Kernel.Launch
import proofs.«125372_g24172075942153_fold_wed_m_647_21_alg».proof.Proof.Gen.Kernel.Points
import proofs.«125372_g24172075942153_fold_wed_m_647_21_alg».proof.Proof.Gen.Kernel.Frame
import proofs.«125372_g24172075942153_fold_wed_m_647_21_alg».proof.Proof.Gen.KernelIdeal
import proofs.«125372_g24172075942153_fold_wed_m_647_21_alg».proof.Proof.Gen.KernelIdeal.Skeleton
import proofs.«125372_g24172075942153_fold_wed_m_647_21_alg».proof.Proof.Gen.KernelIdeal.Launch
import proofs.«125372_g24172075942153_fold_wed_m_647_21_alg».proof.Proof.Gen.KernelIdeal.Points
import proofs.«125372_g24172075942153_fold_wed_m_647_21_alg».proof.Proof.Gen.KernelIdeal.Frame
import proofs.«125372_g24172075942153_fold_wed_m_647_21_alg».proof.Proof.Gen.KernelIdeal.Value
import proofs.«125372_g24172075942153_fold_wed_m_647_21_alg».proof.Proof.Gen.ReferenceIdeal
import proofs.«125372_g24172075942153_fold_wed_m_647_21_alg».proof.Proof.Gen.Pre_finite_inputs
import proofs.«125372_g24172075942153_fold_wed_m_647_21_alg».proof.Proof.KernelValue
import proofs.«125372_g24172075942153_fold_wed_m_647_21_alg».proof.Proof.PreDecode
import proofs.«125372_g24172075942153_fold_wed_m_647_21_alg».proof.Proof.RefRun
import proofs.«125372_g24172075942153_fold_wed_m_647_21_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The kernel's result array ends at the layer of the argument arrays; the reference's at the layer of the mask of
    its adjacency argument, which agrees with the kernel's and is 0/1 by the precondition: the mask is the matrix. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.ReferenceIdeal.RefValue.refTerm_eq,
    Cert.Pre_finite_inputs.Decode.mask_eq _ _ (Cert.Pre_finite_inputs.Decode.zero_or_one _ _ _ (hpre c))]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
